-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8x2048x256 .f32) (main_arg1 : FVec F S8x2048x2048 .f32) (main_arg2 : FVec F S256x256 .f32) (main_arg3 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S1x256 : Shape := ⟨2, ![1, 256]⟩
abbrev S1x2048x256 : Shape := ⟨3, ![1, 2048, 256]⟩
abbrev S1x1024x2048 : Shape := ⟨3, ![1, 1024, 2048]⟩
abbrev S1x1024x256 : Shape := ⟨3, ![1, 1024, 256]⟩
abbrev S2048x256 : Shape := ⟨2, ![2048, 256]⟩
abbrev S1024x2048 : Shape := ⟨2, ![1024, 2048]⟩
abbrev S1024x256 : Shape := ⟨2, ![1024, 256]⟩

abbrev nBuf : Space → Nat
  | .hbm => 6
  | .vmem => 9
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S8x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S1x1024x2048, .f32⟩
  | .local _ .vmem, ⟨3, _⟩ => ⟨S1x1024x2048, .f32⟩
  | .local _ .vmem, ⟨4, _⟩ => ⟨S256x256, .f32⟩
  | .local _ .vmem, ⟨5, _⟩ => ⟨S1x256, .f32⟩
  | .local _ .vmem, ⟨6, _⟩ => ⟨S1x1024x256, .f32⟩
  | .local _ .vmem, ⟨7, _⟩ => ⟨S1x1024x256, .f32⟩
  | .local _ .vmem, ⟨8, _⟩ => ⟨S2048x256, .bf16⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S256_S1x256 : S256.ShapeCasts S1x256
  inb_S256x256_S256x256_0_0 : ∀ a, (![0, 0] : Fin 2 → Nat) a + S256x256.size a ≤ S256x256.size a
  h_S256x256 : 0 < S256x256.numel
  natLt_1_32 : 1 < 32
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  dot_S2048x256_S256x256_S2048x256_1_0_0_1_n_n_wf : DotDims.WF S2048x256 S256x256 S2048x256 [1] [0] [0] [1] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x2048x2048.size a
  hwx0_1 : ∀ i : grid0.Coords, EltTy.bits .f32 = 32 ∨ (Rect.block (s := S8x2048x2048) S1x1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S8x2048x256.size a
  hwx0_4 : ∀ i : grid0.Coords, EltTy.bits .f32 = 32 ∨ (Rect.block (s := S8x2048x256) S1x1024x256.size (cc0_transform_4 i) (hinb0_4 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S_ : Shape := ⟨0, ![]⟩
abbrev S1x1x256 : Shape := ⟨3, ![1, 1, 256]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S256x256, .f32⟩
  | .hbm, ⟨3, _⟩ => ⟨S256, .f32⟩
  | .hbm, ⟨4, _⟩ => ⟨S_, .f32⟩
  | .hbm, ⟨5, _⟩ => ⟨S256x256, .f32⟩
  | .hbm, ⟨6, _⟩ => ⟨S256x256, .i1⟩
  | .hbm, ⟨7, _⟩ => ⟨S256x256, .f32⟩
  | .hbm, ⟨8, _⟩ => ⟨S_, .f32⟩
  | .hbm, ⟨9, _⟩ => ⟨S256x256, .f32⟩
  | .hbm, ⟨10, _⟩ => ⟨S256x256, .i1⟩
  | .hbm, ⟨11, _⟩ => ⟨S256x256, .f32⟩
  | .hbm, ⟨12, _⟩ => ⟨S256x256, .f32⟩
  | .hbm, ⟨13, _⟩ => ⟨S_, .f32⟩
  | .hbm, ⟨14, _⟩ => ⟨S256x256, .f32⟩
  | .hbm, ⟨15, _⟩ => ⟨S256x256, .f32⟩
  | .hbm, ⟨16, _⟩ => ⟨S8x2048x256, .f32⟩
  | .hbm, ⟨17, _⟩ => ⟨S8x2048x256, .f32⟩
  | .hbm, ⟨18, _⟩ => ⟨S1x1x256, .f32⟩
  | .hbm, ⟨19, _⟩ => ⟨S8x2048x256, .f32⟩
  | .hbm, ⟨20, _⟩ => ⟨S8x2048x256, .f32⟩
  | .hbm, ⟨21, _⟩ => ⟨S_, .f32⟩
  | .hbm, ⟨22, _⟩ => ⟨S8x2048x256, .f32⟩
  | .hbm, ⟨23, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S256x256 : S_.BroadcastsInDim S256x256 (![] : Fin 0 → Fin S256x256.rank)
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S_S8x2048x256 : S_.BroadcastsInDim S8x2048x256 (![] : Fin 0 → Fin S8x2048x256.rank)
  dot_S8x2048x256_S256x256_S8x2048x256_2_0_01_1_n_n_wf : DotDims.WF S8x2048x256 S256x256 S8x2048x256 [2] [0] [0, 1] [1] [] []
  dot_S8x2048x2048_S8x2048x256_S8x2048x256_2_1_1_2_0_0_wf : DotDims.WF S8x2048x2048 S8x2048x256 S8x2048x256 [2] [1] [1] [2] [0] [0]

variable [Facts₀]

def dot_S8x2048x256_S256x256_S8x2048x256_2_0_01_1_n_n : DotDims S8x2048x256 S256x256 S8x2048x256 where
  lhsContracting := [2]
  rhsContracting := [0]
  lhsNonContracting := [0, 1]
  rhsNonContracting := [1]
  lhsBatch := []
  rhsBatch := []
  wf := dot_S8x2048x256_S256x256_S8x2048x256_2_0_01_1_n_n_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.Spec.lean ====
/-
  The layer as one function of the argument arrays, index by index, on the extended reals.

  A weight `w` is replaced by its ternary pattern `tern w`: `1` when `w` exceeds the threshold `thr`, `-1` when it
  is below `-thr`, `0` between. Row `n` of batch `b` is projected through the pattern and scaled by the threshold,

      proj X W b n o = (∑ i, X[b, n, i] · tern W[i, o]) · thr,

  and the layer is the neighbourhood sum of the projected rows plus the bias, clamped below at zero:

      layer X A W B [b, n, o] = max (∑ k, A[b, n, k] · proj X W b k o + B[o]) 0.

  The scale may equally be applied to the pattern before the projection (`proj'`): the threshold is a NONNEGATIVE REAL,
  and multiplication by such a number distributes over every sum of extended reals, infinite terms included
  (`sum_mul_thr`), so the two spellings are one function (`proj_eq`) with no condition on the inputs.
-/
import Idealize.ShloMosaic.PureOps.Ideal
import Idealize.ShloMosaic.Lib.ValueIdx

noncomputable section

namespace Cert.Spec

open Idealize.ShloMosaic Idealize.ShloMosaic.ValueIdx

/-- The threshold: the single-precision number nearest to one hundredth, as the extended real its word denotes. -/
def thr : EReal := Ideal.ofBits .f32 0x3C23D70A#32

/-- Its negative, as its own word denotes it. -/
def nthr : EReal := Ideal.ofBits .f32 0xBC23D70A#32

/-- The zero the layer is clamped at, as the zero word denotes it. -/
def zero : EReal := Ideal.ofBits .f32 0x00000000#32

/-- The threshold is the dyadic rational 10737418 / 2^30. -/
theorem thr_val : thr = ((10737418 / 2 ^ 30 : ℝ) : EReal) := by
  unfold thr
  simp [Ideal.ofBits, Ideal.ieee, -EReal.coe_mul]; norm_num

theorem thr_nonneg : 0 ≤ thr := by
  rw [thr_val]; exact EReal.coe_nonneg.mpr (by positivity)

theorem thr_ne_top : thr ≠ ⊤ := by
  rw [thr_val]; exact EReal.coe_ne_top _

/-- The ternary pattern of a weight: the indicator of `w > thr` minus the indicator of `w < -thr`. -/
def tern (w : EReal) : EReal :=
  (((FloatOps.cmpf (F := Ideal) (φ := .f32) .ogt w thr).toNat : ℝ) : EReal)
    - (((FloatOps.cmpf (F := Ideal) (φ := .f32) .olt w nthr).toNat : ℝ) : EReal)

/-- Scaling by the threshold distributes over a finite sum of extended reals: the threshold is nonnegative and finite, and
    for such a factor `(y + z) · t = y · t + z · t` holds at the infinities too. -/
theorem sum_mul_thr {ι : Type} (s : Finset ι) (f : ι → EReal) : (∑ i ∈ s, f i) * thr = ∑ i ∈ s, f i * thr := by
  classical
  induction s using Finset.induction_on with
  | empty => simp
  | insert a s ha ih =>
    rw [Finset.sum_insert ha, Finset.sum_insert ha, EReal.right_distrib_of_nonneg_of_ne_top thr_nonneg thr_ne_top, ih]

/-- Row `n` of batch `b` projected through the ternary pattern, then scaled. -/
def proj (X : (⟨3, ![8, 2048, 256]⟩ : Shape).Idx → EReal) (W : (⟨2, ![256, 256]⟩ : Shape).Idx → EReal)
    (b : Fin 8) (n : Fin 2048) (o : Fin 256) : EReal :=
  (∑ i : Fin 256, X (ix3 b n i) * tern (W (ix2 i o))) * thr

/-- The same with the pattern scaled first. -/
def proj' (X : (⟨3, ![8, 2048, 256]⟩ : Shape).Idx → EReal) (W : (⟨2, ![256, 256]⟩ : Shape).Idx → EReal)
    (b : Fin 8) (n : Fin 2048) (o : Fin 256) : EReal :=
  ∑ i : Fin 256, X (ix3 b n i) * (tern (W (ix2 i o)) * thr)

/-- The two are one function: the scale moves across the sum (`sum_mul_thr`) and into each product by associativity. -/
theorem proj_eq (X : (⟨3, ![8, 2048, 256]⟩ : Shape).Idx → EReal) (W : (⟨2, ![256, 256]⟩ : Shape).Idx → EReal)
    (b : Fin 8) (n : Fin 2048) (o : Fin 256) : proj' X W b n o = proj X W b n o := by
  unfold proj proj'
  rw [sum_mul_thr]
  exact Finset.sum_congr rfl fun i _ => (mul_assoc _ _ _).symm

/-- The layer at explicit coordinates. -/
def layerAt (X : (⟨3, ![8, 2048, 256]⟩ : Shape).Idx → EReal) (A : (⟨3, ![8, 2048, 2048]⟩ : Shape).Idx → EReal)
    (W : (⟨2, ![256, 256]⟩ : Shape).Idx → EReal) (B : (⟨1, ![256]⟩ : Shape).Idx → EReal)
    (b : Fin 8) (n : Fin 2048) (o : Fin 256) : EReal :=
  max ((∑ k : Fin 2048, A (ix3 b n k) * proj X W b k o) + B (ix1 o)) zero

/-- The layer as one function of the four argument arrays. -/
def layer (X : (⟨3, ![8, 2048, 256]⟩ : Shape).Idx → EReal) (A : (⟨3, ![8, 2048, 2048]⟩ : Shape).Idx → EReal)
    (W : (⟨2, ![256, 256]⟩ : Shape).Idx → EReal) (B : (⟨1, ![256]⟩ : Shape).Idx → EReal) :
    (⟨3, ![8, 2048, 256]⟩ : Shape).Idx → EReal :=
  fun j => layerAt X A W B (j 0) (j 1) (j 2)

theorem layer_ix3 (X : (⟨3, ![8, 2048, 256]⟩ : Shape).Idx → EReal) (A : (⟨3, ![8, 2048, 2048]⟩ : Shape).Idx → EReal)
    (W : (⟨2, ![256, 256]⟩ : Shape).Idx → EReal) (B : (⟨1, ![256]⟩ : Shape).Idx → EReal)
    (b : Fin 8) (n : Fin 2048) (o : Fin 256) : layer X A W B (ix3 b n o) = layerAt X A W B b n o := rfl

end Cert.Spec

end
-- ==== Proof.RefLayer.lean ====
/-
  The reference program's result is the layer.

  The reference computes, element by element, the ternary pattern of the weights scaled by the threshold,
  projects every row of the features through that scaled pattern, sums the projected rows over each row's
  neighbourhood, adds the bias and clamps below at zero. Read at an index `(b, n, o)` this is

      max (∑ k, A[b, n, k] · (∑ i, X[b, k, i] · (tern W[i, o] · thr)) + B[o]) 0,

  which is the layer with the scale applied to the pattern before the projection; moving the scale across the
  inner sum (`Spec.proj_eq`) gives the layer as specified.
-/
import proofs.«113239_j5540507811925_2_alg».proof.Proof.Spec
import proofs.«113239_j5540507811925_2_alg».proof.Proof.Gen.ReferenceIdeal.Read
import Idealize.ShloMosaic.PureOps.Ideal.Laws
import Idealize.ShloMosaic.Lib.ValueIdx

noncomputable section

namespace Cert.RefLayer

open Idealize.ShloMosaic Idealize.ShloMosaic.ValueIdx Cert.ReferenceIdeal Cert.ReferenceIdeal.Read

/-! The index maps of the two contractions and of the bias broadcast, at explicit coordinates. -/

private theorem lidx10 (b : Fin 8) (n : Fin 2048) (o : Fin 256) (k : Fin 2048) :
    lidx_main_v10 (ix3 b n o) k = ix3 b n k :=
  funext fun a => Fin.ext (by match a with | ⟨0, _⟩ => rfl | ⟨1, _⟩ => rfl | ⟨2, _⟩ => rfl)

private theorem ridx10 (b : Fin 8) (n : Fin 2048) (o : Fin 256) (k : Fin 2048) :
    ridx_main_v10 (ix3 b n o) k = ix3 b k o :=
  funext fun a => Fin.ext (by match a with | ⟨0, _⟩ => rfl | ⟨1, _⟩ => rfl | ⟨2, _⟩ => rfl)

private theorem lidx9 (b : Fin 8) (k : Fin 2048) (o : Fin 256) (i : Fin 256) :
    lidx_main_v9 (ix3 b k o) i = ix3 b k i :=
  funext fun a => Fin.ext (by match a with | ⟨0, _⟩ => rfl | ⟨1, _⟩ => rfl | ⟨2, _⟩ => rfl)

private theorem ridx9 (b : Fin 8) (k : Fin 2048) (o : Fin 256) (i : Fin 256) :
    ridx_main_v9 (ix3 b k o) i = ix2 i o :=
  funext fun a => Fin.ext (by match a with | ⟨0, _⟩ => rfl | ⟨1, _⟩ => rfl)

private theorem idxBias (b : Fin 8) (n : Fin 2048) (o : Fin 256) :
    idx_main_v11 (idx_main_v12 (ix3 b n o)) = ix1 o :=
  funext fun a => Fin.ext (by match a with | ⟨0, _⟩ => rfl)

/-- The scaled pattern: the weight operand of the projection is, element by element, the ternary pattern of the
    weight times the threshold. -/
private theorem weight_apply (x2 : FVec Ideal S256x256 .f32) (j : S256x256.Idx) :
    val_main_v8 (F := Ideal) x2 j = Cert.Spec.tern (x2 j) * Cert.Spec.thr := by
  rw [val_main_v8_apply, val_main_v6_apply, val_main_v2_apply, val_main_v1_apply, val_main_v5_apply,
    val_main_v4_apply, val_main_v0_apply, val_main_v3_apply, val_main_v7_apply, val_main_cst_apply,
    val_main_cst_0_apply, val_main_cst_1_apply]
  rfl

/-- The projection stage at explicit coordinates: the row projected through the scaled pattern. -/
private theorem proj_apply (x0 : FVec Ideal S8x2048x256 .f32) (x2 : FVec Ideal S256x256 .f32)
    (b : Fin 8) (k : Fin 2048) (o : Fin 256) :
    val_main_v9 (F := Ideal) x0 x2 (ix3 b k o) = Cert.Spec.proj' x0 x2 b k o := by
  rw [val_main_v9_apply]
  unfold Cert.Spec.proj'
  refine Finset.sum_congr rfl fun i _ => ?_
  rw [lidx9, ridx9, weight_apply]

theorem ref_eq (x0 : FVec Ideal Cert.ReferenceIdeal.S8x2048x256 .f32) (x1 : FVec Ideal Cert.ReferenceIdeal.S8x2048x2048 .f32)
    (x2 : FVec Ideal Cert.ReferenceIdeal.S256x256 .f32) (x3 : FVec Ideal Cert.ReferenceIdeal.S256 .f32) :
    Cert.ReferenceIdeal.Read.val_main_v14 (F := Ideal) x0 x1 x2 x3 = Cert.Spec.layer x0 x1 x2 x3 := by
  funext j
  obtain ⟨b, n, o, rfl⟩ : ∃ (b : Fin 8) (n : Fin 2048) (o : Fin 256), j = ix3 b n o := ⟨j 0, j 1, j 2, eq_ix3 j⟩
  rw [Cert.Spec.layer_ix3, val_main_v14_apply, val_main_v13_apply, val_main_v10_apply, val_main_v12_apply,
    val_main_v11_apply, val_main_call0_v0_apply, val_main_call0_cst_apply, idxBias]
  unfold Cert.Spec.layerAt
  rw [Ideal.maximumf_def, Ideal.addf_def, Ideal.ofBits_def]
  refine congrArg (fun s => max (s + x3 (ix1 o)) Cert.Spec.zero) ?_
  refine Finset.sum_congr rfl fun k _ => ?_
  rw [lidx10, ridx10, proj_apply, Cert.Spec.proj_eq]

end Cert.RefLayer

end
-- ==== Proof.Pieces.lean ====
/-
  What one run of the body leaves behind, as values of the blocks it loaded.

  The body stores twice. At a grid point that opens a batch it first fills the carried scratch with the projected,
  scaled feature rows of the batch (the first stored value, a function of the weight block and the feature block), and
  then, reading that scratch back whole, stores the output block (the second stored value, a function of the adjacency
  block, the scratch and the bias block). At every other point it leaves the scratch as it found it and stores the
  output block computed over what the scratch already held. Each store covers its whole buffer, so what a buffer ends
  holding is the stored value itself.
-/
import proofs.«113239_j5540507811925_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a point that keeps the carried scratch, the output block is the second stored value of the adjacency block, the
    scratch as the point before left it, and the bias block: the body's one covering store, its loads reading whole buffers. -/
theorem out_B (c : Dev nD) (i : grid0.Coords) (a2 : Memref sig .tc .vmem S1x2048x256 .f32) (h2 : a2.IsWhole) (a3 : Memref sig .tc .vmem S1x1024x2048 .f32) (h3 : a3.IsWhole) (a4 : Memref sig .tc .vmem S256x256 .f32) (h4 : a4.IsWhole) (a5 : Memref sig .tc .vmem S1x256 .f32) (h5 : a5.IsWhole) (a6 : Memref sig .tc .vmem S1x1024x256 .f32) (h6 : a6.IsWhole) (a7 : Memref sig .tc .vmem S2048x256 .bf16) (h7 : a7.IsWhole) (hc : ¬cond0_0 i)
    (x0 : Vec F S1x2048x256 .f32) (x1 : Vec F S1x1024x2048 .f32) (x2 : Vec F S256x256 .f32) (x3 : Vec F S1x256 .f32) (xs0 : Vec F S2048x256 .bf16) :
    out0_B_4 c i a2 h2 a3 h3 a4 h4 a5 h5 a6 h6 a7 h7 hc x0 x1 x2 x3 xs0 = k0_pay2 x1 xs0 x3 := by
  unfold out0_B_4
  rw [View.read_writes_eq_canon _ _ _ (cover0_B_4 c i a2 h2 a3 h3 a4 h4 a5 h5 a6 h6 a7 h7 hc x0 x1 x2 x3 xs0)]
  unfold kernelRun0_B
  dsimp only
  rw [View.canon_unit_zero hz3]
  simp only [View.readAt_eq_ld, h3.read_unread, h7.read_unread, h5.read_unread,
    View.ld_unit_zero (S := S1x1024x2048) hz3, View.ld_unit_zero (S := S2048x256) hz2, View.ld_unit_zero (S := S1x256) hz2]

/-- At a point that refills the scratch, the scratch ends at the first stored value of the weight block and the feature
    block: one covering store, whatever the scratch held. -/
theorem sout_A (c : Dev nD) (i : grid0.Coords) (a2 : Memref sig .tc .vmem S1x2048x256 .f32) (h2 : a2.IsWhole) (a3 : Memref sig .tc .vmem S1x1024x2048 .f32) (h3 : a3.IsWhole) (a4 : Memref sig .tc .vmem S256x256 .f32) (h4 : a4.IsWhole) (a5 : Memref sig .tc .vmem S1x256 .f32) (h5 : a5.IsWhole) (a6 : Memref sig .tc .vmem S1x1024x256 .f32) (h6 : a6.IsWhole) (a7 : Memref sig .tc .vmem S2048x256 .bf16) (h7 : a7.IsWhole) (hc : cond0_0 i)
    (x0 : Vec F S1x2048x256 .f32) (x1 : Vec F S1x1024x2048 .f32) (x2 : Vec F S256x256 .f32) (x3 : Vec F S1x256 .f32) :
    sout0_A_0 c i a2 h2 a3 h3 a4 h4 a5 h5 a6 h6 a7 h7 hc x0 x1 x2 x3 = k0_pay1 x2 x0 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero hz2]
  simp only [View.readAt_eq_ld, h2.read_unread, h4.read_unread,
    View.ld_unit_zero (S := S1x2048x256) hz3, View.ld_unit_zero (S := S256x256) hz2]

/-- … and the output block is the second stored value over that refilled scratch: the body reads back, whole, what it has
    just stored. -/
theorem out_A (c : Dev nD) (i : grid0.Coords) (a2 : Memref sig .tc .vmem S1x2048x256 .f32) (h2 : a2.IsWhole) (a3 : Memref sig .tc .vmem S1x1024x2048 .f32) (h3 : a3.IsWhole) (a4 : Memref sig .tc .vmem S256x256 .f32) (h4 : a4.IsWhole) (a5 : Memref sig .tc .vmem S1x256 .f32) (h5 : a5.IsWhole) (a6 : Memref sig .tc .vmem S1x1024x256 .f32) (h6 : a6.IsWhole) (a7 : Memref sig .tc .vmem S2048x256 .bf16) (h7 : a7.IsWhole) (hc : cond0_0 i)
    (x0 : Vec F S1x2048x256 .f32) (x1 : Vec F S1x1024x2048 .f32) (x2 : Vec F S256x256 .f32) (x3 : Vec F S1x256 .f32) :
    out0_A_4 c i a2 h2 a3 h3 a4 h4 a5 h5 a6 h6 a7 h7 hc x0 x1 x2 x3 = k0_pay2 x1 (k0_pay1 x2 x0) x3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero hz3, View.readCov_unit_zero (S := S2048x256) _ hz2]
  simp only [View.readAt_eq_ld, h2.read_unread, h3.read_unread, h4.read_unread, h5.read_unread,
    View.ld_unit_zero (S := S1x2048x256) hz3, View.ld_unit_zero (S := S1x1024x2048) hz3,
    View.ld_unit_zero (S := S256x256) hz2, View.ld_unit_zero (S := S1x256) hz2]

end Cert.KernelIdeal.Pieces
end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.Payloads.lean ====
/-
  The kernel body's two stored values, read at an index, on the extended reals.

  The first store writes the projected rows: the feature block times the ternary pattern of the weight block, scaled by
  the threshold. The second writes the layer's rows: the adjacency block times the projected rows, plus the bias row,
  clamped below at zero. On the extended reals a format change is the identity and a matrix-unit product into a zero
  accumulator is the plain sum of products, so each stored value at an index is the formula below.
-/
import proofs.«113239_j5540507811925_2_alg».proof.Proof.Spec
import proofs.«113239_j5540507811925_2_alg».proof.Proof.LibPlainDot
import proofs.«113239_j5540507811925_2_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

noncomputable section

namespace Cert.Payloads

open Idealize.ShloMosaic Idealize.ShloMosaic.ValueIdx
open Cert.KernelIdeal Cert.KernelIdeal.Gen

/-- A one-bit word widened to 32 bits and read as a signed integer is the bit itself, as a natural number. -/
private theorem bit_toInt : ∀ b : BitVec 1, (b.setWidth 32).toInt = (b.toNat : ℤ) := by decide

/-- The kernel's pattern of a weight block at an index: the indicator of "above the threshold" minus the indicator of
    "below its negative", each a comparison bit widened and converted exactly, is the ternary pattern of that weight. -/
private theorem tern_apply (w : FVec Ideal S256x256 .f32) (i o : Fin 256) :
    (subf
      (truncf .bf16 (sitofp .f32 (extui 32 (cmpf .ogt w (broadcast S256x256 (Scalar.ofBits (F := Ideal) .f32 0x3C23D70A#32))) natLt_1_32)) bitsLt_bf16_f32)
      (truncf .bf16 (sitofp .f32 (extui 32 (cmpf .olt w (broadcast S256x256 (Scalar.ofBits (F := Ideal) .f32 0xBC23D70A#32))) natLt_1_32)) bitsLt_bf16_f32)
      : FVec Ideal S256x256 .bf16) (ix2 i o) = Cert.Spec.tern (w (ix2 i o)) := by
  show (((((FloatOps.cmpf (F := Ideal) (φ := .f32) .ogt (w (ix2 i o)) Cert.Spec.thr).setWidth 32).toInt : ℝ) : EReal)
      - ((((FloatOps.cmpf (F := Ideal) (φ := .f32) .olt (w (ix2 i o)) Cert.Spec.nthr).setWidth 32).toInt : ℝ) : EReal)) = _
  unfold Cert.Spec.tern
  rw [bit_toInt, bit_toInt, Int.cast_natCast, Int.cast_natCast]

/-- The first stored value: the feature block times the ternary pattern of the weight block, scaled by the threshold. -/
theorem pay1_apply (w : FVec Ideal S256x256 .f32) (x : FVec Ideal S1x2048x256 .f32) (n : Fin 2048) (o : Fin 256) :
    k0_pay1 (F := Ideal) w x (ix2 n o)
      = (∑ i : Fin 256, x (ix3 (0 : Fin 1) n i) * Cert.Spec.tern (w (ix2 i o))) * Cert.Spec.thr := by
  unfold k0_pay1
  refine (congrFun (shapeCast_self _ _) (ix2 n o)).trans ?_
  refine congrArg (fun t : EReal => t * Cert.Spec.thr)
    (?_ : _ = ∑ i : Fin 256, x (ix3 (0 : Fin 1) n i) * Cert.Spec.tern (w (ix2 i o)))
  refine (Cert.PlainDot.matmul_zero_apply 2048 256 256 none _ _ (ix2 n o)).trans ?_
  refine Finset.sum_congr rfl fun i _ => ?_
  refine congrArg₂ (fun p q : EReal => p * q) ?_ ?_
  · exact shapeCast_1ab_ab_apply x _ n i
  · exact tern_apply w i o

/-- The second stored value: the adjacency block times the projected rows, plus the bias row, clamped below at zero. -/
theorem pay2_apply (a : FVec Ideal S1x1024x2048 .f32) (s : FVec Ideal S2048x256 .bf16) (bb : FVec Ideal S1x256 .f32)
    (r : Fin 1024) (o : Fin 256) :
    k0_pay2 (F := Ideal) a s bb (ix3 (0 : Fin 1) r o)
      = max ((∑ k : Fin 2048, a (ix3 (0 : Fin 1) r k) * s (ix2 k o)) + bb (ix2 (0 : Fin 1) o)) Cert.Spec.zero := by
  unfold k0_pay2
  refine (shapeCast_ab_1ab_apply _ _ (0 : Fin 1) r o).trans ?_
  refine congrArg (fun t : EReal => max t Cert.Spec.zero)
    (?_ : _ = (∑ k : Fin 2048, a (ix3 (0 : Fin 1) r k) * s (ix2 k o)) + bb (ix2 (0 : Fin 1) o))
  refine congrArg₂ (fun p q : EReal => p + q) ?_ ?_
  · refine (Cert.PlainDot.matmul_zero_apply 1024 2048 256 none _ _ (ix2 r o)).trans ?_
    refine Finset.sum_congr rfl fun k _ => ?_
    refine congrArg (fun p : EReal => p * s (ix2 k o)) ?_
    exact shapeCast_1ab_ab_apply a _ r k
  · refine (broadcastTo_1b_ab_apply _ _ r o).trans ?_
    exact congrFun (shapeCast_self bb _) (ix2 (0 : Fin 1) o)

end Cert.Payloads

end
-- ==== Proof.Blocks.lean ====
/-
  The blocks the body is handed, as restrictions of the arrays the region finds.

  The grid has sixteen points, two per batch: point `t` works on batch `t / 2` and on the row half `t % 2`. At `t`
  the feature window holds all rows of batch `t / 2`, the adjacency window the 1024 rows `1024 · (t % 2) + r` of that
  batch, the weight and bias windows their whole arrays, and the output window the same 1024 rows of the result. The
  bias window's array is the bias vector given a leading axis of extent one by the host before the region.
-/
import proofs.«113239_j5540507811925_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.StableHlo
open Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The printed index maps over the grid: the batch is `t / 2`, the row half `t % 2`, every other block index zero. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 2 ∧ win0_4.index t (1 : Fin 3) = t.val % 2 ∧ win0_4.index t (2 : Fin 3) = 0 :=
  (by decide +kernel : ∀ t : Fin grid0.N, _)

theorem lt16 (t : Fin cfg0.N) : t.val < 16 := lt_of_lt_of_eq t.isLt N_0

/-- The batch point `t` works on. -/
def bat (t : Fin cfg0.N) : Fin 8 := ⟨t.val / 2, by have := lt16 t; omega⟩

/-- Row `r` of point `t`'s row half, as a row of the batch. -/
def row (t : Fin cfg0.N) (r : Fin 1024) : Fin 2048 := ⟨t.val % 2 * 1024 + r.val, by have := r.isLt; omega⟩

/-- The feature block at `t` is batch `t / 2` of the feature array. -/
theorem iblk0_apply (c : Dev nD) (t : Fin cfg0.N) (k : Fin 2048) (i : Fin 256) :
    (iblk m c 0 t : Vec F S1x2048x256 .f32) (ix3 (0 : Fin 1) k i) = V m c main_arg0 (ix3 (bat t) k i) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = t.val / 2; omega
  | ⟨1, _⟩ => show win0_0.index t (1 : Fin 3) * 2048 + 1 * k.val = k.val; omega
  | ⟨2, _⟩ => show win0_0.index t (2 : Fin 3) * 256 + 1 * i.val = i.val; omega

/-- The adjacency block at `t` is the row half `t % 2` of batch `t / 2` of the adjacency array. -/
theorem iblk1_apply (c : Dev nD) (t : Fin cfg0.N) (r : Fin 1024) (k : Fin 2048) :
    (iblk m c 1 t : Vec F S1x1024x2048 .f32) (ix3 (0 : Fin 1) r k) = V m c main_arg1 (ix3 (bat t) (row t r) k) := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = t.val / 2; omega
  | ⟨1, _⟩ => show win0_1.index t (1 : Fin 3) * 1024 + 1 * r.val = t.val % 2 * 1024 + r.val; omega
  | ⟨2, _⟩ => show win0_1.index t (2 : Fin 3) * 2048 + 1 * k.val = k.val; omega

/-- The weight block is the weight array. -/
theorem iblk2_apply (c : Dev nD) (t : Fin cfg0.N) (i o : Fin 256) :
    (iblk m c 2 t : Vec F S256x256 .f32) (ix2 i o) = V m c main_arg2 (ix2 i o) := by
  obtain ⟨-, -, -, -, -, -, e0, e1, -⟩ := idx_facts t
  unfold iblk
  rw [View.read_apply]
  show V m c main_arg2 _ = V m c main_arg2 _
  congr 1
  funext a
  apply Fin.ext
  match a with
  | ⟨0, _⟩ => show win0_2.index t (0 : Fin 2) * 256 + 1 * i.val = i.val; omega
  | ⟨1, _⟩ => show win0_2.index t (1 : Fin 2) * 256 + 1 * o.val = o.val; omega

/-- The bias block is the bias row as the region finds it. -/
theorem iblk3_apply (c : Dev nD) (t : Fin cfg0.N) (o : Fin 256) :
    (iblk m c 3 t : Vec F S1x256 .f32) (ix2 (0 : Fin 1) o) = V m c main_v0 (ix2 (0 : Fin 1) o) := by
  obtain ⟨-, -, -, -, -, -, -, -, e0, e1, -⟩ := idx_facts t
  unfold iblk
  rw [View.read_apply]
  show V m c main_v0 _ = V m c main_v0 _
  congr 1
  funext a
  apply Fin.ext
  match a with
  | ⟨0, _⟩ => show win0_3.index t (0 : Fin 2) * 1 + 1 * 0 = 0; omega
  | ⟨1, _⟩ => show win0_3.index t (1 : Fin 2) * 256 + 1 * o.val = o.val; omega

/-- The bias row the region finds is the bias vector under a leading axis of extent one. -/
theorem V_bias (c : Dev nD) :
    (V m c main_v0 : S1x256.Idx → Elt F .f32) = shapeCast S1x256 (m ((c : Thread nD τ).loc main_arg3)) shapeCasts_S256_S1x256 := by
  dsimp only [Gen.V, Gen.hostOps0]; after_results; rfl

theorem V_bias_apply (c : Dev nD) (o : Fin 256) :
    V m c main_v0 (ix2 (0 : Fin 1) o) = m ((c : Thread nD τ).loc main_arg3) (ix1 o) := by
  rw [V_bias]
  exact shapeCast_a_1a_apply _ _ (0 : Fin 1) o

end Cert.KernelIdeal.Blocks

end
-- ==== Proof.Carried.lean ====
/-
  The scratch the two points of a batch share, and what each point writes back, as stored values of the point's blocks.

  A point that opens a batch fills the scratch with the first stored value of its weight and feature blocks; every
  other point leaves the scratch as the point before left it. Either way what the point writes back is the second
  stored value of its adjacency block, the scratch AFTER the point, and its bias block: at an opening point the body
  reads back what it has just stored, elsewhere what it was handed.
-/
import proofs.«113239_j5540507811925_2_alg».proof.Proof.Pieces
import proofs.«113239_j5540507811925_2_alg».proof.Proof.Gen.KernelIdeal.Value
import Idealize.ShloMosaic.Lib.Pipeline.Value

noncomputable section

open Idealize.ShloMosaic Idealize.ShloMosaic.TcCoe Idealize.SL.Sem
open Idealize.ShloMosaic.Pipeline (Dat)

namespace Cert.KernelIdeal.Carried

open Cert.KernelIdeal Cert.KernelIdeal.Gen

variable {F : FTy → Type} [FloatOps F]
variable (m : (ℓ : Loc nD τ sig) → Buf (Elt F) ℓ)

/-- A point that opens a batch leaves the first stored value of its weight and feature blocks in the scratch. -/
theorem scratch_A (c : Dev nD) (t : Fin cfg0.N) (h0 : t.val % 2 = 0) :
    (outsAt0 m c t.val t.isLt).2 = k0_pay1 (iblk m c 2 t) (iblk m c 0 t) := by
  rw [outsAt0_A m c t h0]
  dsimp only
  exact Cert.KernelIdeal.Pieces.sout_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)

/-- Any other point leaves the scratch as the point before left it. -/
theorem scratch_B (c : Dev nD) (t : Fin cfg0.N) (h0 : ¬t.val % 2 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

/-- What point `t` writes back is the second stored value of its adjacency block, the scratch after `t`, and its bias block. -/
theorem flushed_pay (c : Dev nD) (t : Fin cfg0.N) :
    (dats m 0 c).flushed 4 t
      = (cfg0.win 4).cut (grid0.coords t) (k0_pay2 (iblk m c 1 t) ((outsAt0 m c t.val t.isLt).2) (iblk m c 3 t)) := by
  by_cases h0 : t.val % 2 = 0
  · rw [Cert.KernelIdeal.Value.flushed4_A m c t h0, scratch_A m c t h0]
    exact congrArg ((cfg0.win 4).cut (grid0.coords t))
      (Cert.KernelIdeal.Pieces.out_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t))
  · rw [Cert.KernelIdeal.Value.flushed4_B m c t h0, scratch_B m c t h0]
    exact congrArg ((cfg0.win 4).cut (grid0.coords t))
      (Cert.KernelIdeal.Pieces.out_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t)
        (outsAt0 m c (t.val - 1) (Nat.lt_of_le_of_lt (Nat.sub_le _ _) t.isLt)).2)

end Cert.KernelIdeal.Carried

end
-- ==== Proof.KernelLayer.lean ====
/-
  The kernel's result array is the layer of its argument arrays, on the extended reals.

  The carried scratch. A point that opens a batch (`t` even) fills the scratch with the projected, scaled feature rows
  of batch `t / 2`; the next point (`t` odd) keeps it, and `(t - 1) / 2 = t / 2`. So after EVERY point `t` the scratch
  holds `proj X W (t / 2)` (`scratch_eq`): an even point by its own store, an odd point by the even point before it.

  The output. At every point the stored output block is the second stored value of the adjacency block, that scratch
  and the bias block (`flushed_pay`), which at row `r`, column `o` is the layer at batch `t / 2`, row
  `1024 · (t % 2) + r`, column `o` (`pay2_layer`): what point `t` writes back is block `t` of the layer
  (`flushed_eq`). Row `n` of batch `b` lies in the block of point `2 b + n / 1024`, so the sixteen blocks cover the
  array (`cover`) and the array ends holding the layer (`final`).
-/
import proofs.«113239_j5540507811925_2_alg».proof.Proof.Spec
import proofs.«113239_j5540507811925_2_alg».proof.Proof.Pieces
import proofs.«113239_j5540507811925_2_alg».proof.Proof.Payloads
import proofs.«113239_j5540507811925_2_alg».proof.Proof.Blocks
import proofs.«113239_j5540507811925_2_alg».proof.Proof.Carried
import proofs.«113239_j5540507811925_2_alg».proof.Proof.Gen.KernelIdeal.Value
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx

namespace Cert.KernelIdeal.Layer

open Cert.KernelIdeal Cert.KernelIdeal.Gen Cert.KernelIdeal.Blocks Cert.KernelIdeal.Carried

variable (m : (ℓ : Loc nD τ sig) → Buf (Elt Ideal) ℓ) (ρ : Dev nD → PrngReg)

/-! ## The two stored values over blocks that restrict the arrays -/

/-- Over a feature block that is batch `b` of `X` and a weight block that is `W`, the first stored value is the
    projected, scaled rows of batch `b`. -/
theorem pay1_proj (X : S8x2048x256.Idx → EReal) (W : S256x256.Idx → EReal) (b : Fin 8)
    (x0 : FVec Ideal S1x2048x256 .f32) (x2 : FVec Ideal S256x256 .f32)
    (h0 : ∀ (k : Fin 2048) (i : Fin 256), x0 (ix3 (0 : Fin 1) k i) = X (ix3 b k i))
    (h2 : ∀ (i o : Fin 256), x2 (ix2 i o) = W (ix2 i o)) (k : Fin 2048) (o : Fin 256) :
    k0_pay1 (F := Ideal) x2 x0 (ix2 k o) = Cert.Spec.proj X W b k o := by
  rw [Cert.Payloads.pay1_apply]
  unfold Cert.Spec.proj
  refine congrArg (fun s : EReal => s * Cert.Spec.thr) (Finset.sum_congr rfl fun i _ => ?_)
  rw [h0, h2]

/-- Over an adjacency block whose row `r` is row `rho r` of batch `b` of `A`, a scratch holding the projected rows of
    batch `b`, and a bias block that is `B`, the second stored value at `(r, o)` is the layer at `(b, rho r, o)`. -/
theorem pay2_layer (X : S8x2048x256.Idx → EReal) (A : S8x2048x2048.Idx → EReal) (W : S256x256.Idx → EReal)
    (B : S256.Idx → EReal) (b : Fin 8)
    (x1 : FVec Ideal S1x1024x2048 .f32) (s : FVec Ideal S2048x256 .bf16) (x3 : FVec Ideal S1x256 .f32)
    (rho : Fin 1024 → Fin 2048)
    (h1 : ∀ (r : Fin 1024) (k : Fin 2048), x1 (ix3 (0 : Fin 1) r k) = A (ix3 b (rho r) k))
    (hs : ∀ (k : Fin 2048) (o : Fin 256), s (ix2 k o) = Cert.Spec.proj X W b k o)
    (h3 : ∀ o : Fin 256, x3 (ix2 (0 : Fin 1) o) = B (ix1 o)) (r : Fin 1024) (o : Fin 256) :
    k0_pay2 (F := Ideal) x1 s x3 (ix3 (0 : Fin 1) r o) = Cert.Spec.layerAt X A W B b (rho r) o := by
  rw [Cert.Payloads.pay2_apply]
  unfold Cert.Spec.layerAt
  rw [h3]
  refine congrArg (fun u : EReal => max (u + B (ix1 o)) Cert.Spec.zero) (Finset.sum_congr rfl fun k _ => ?_)
  rw [h1, hs]

/-! ## The carried scratch after each point -/

/-- After every point the scratch holds the projected, scaled rows of the point's batch. -/
theorem scratch_eq (c : Dev nD) (t : Fin cfg0.N) (k : Fin 2048) (o : Fin 256) :
    (outsAt0 m c t.val t.isLt).2 (ix2 k o) = Cert.Spec.proj (V m c main_arg0) (V m c main_arg2) (bat t) k o := by
  have key : ∀ t : Fin cfg0.N, t.val % 2 = 0 →
      (outsAt0 m c t.val t.isLt).2 (ix2 k o) = Cert.Spec.proj (V m c main_arg0) (V m c main_arg2) (bat t) k o := by
    intro t h0
    rw [scratch_A m c t h0]
    exact pay1_proj (V m c main_arg0) (V m c main_arg2) (bat t) (iblk m c 0 t) (iblk m c 2 t)
      (iblk0_apply m c t) (iblk2_apply m c t) k o
  by_cases h0 : t.val % 2 = 0
  · exact key t h0
  · rw [scratch_B m c t h0]
    have hlt := lt16 t
    have h1 : (t.val - 1) % 2 = 0 := by omega
    have hb : bat ⟨t.val - 1, Nat.lt_of_le_of_lt (Nat.sub_le _ _) t.isLt⟩ = bat t :=
      Fin.ext (by show (t.val - 1) / 2 = t.val / 2; omega)
    rw [← hb]
    exact key ⟨t.val - 1, Nat.lt_of_le_of_lt (Nat.sub_le _ _) t.isLt⟩ h1

/-! ## What each point writes back -/

/-- WHAT POINT `t` WRITES BACK is block `t` of the layer of the arrays the region finds. -/
theorem flushed_eq (c : Dev nD) (t : Fin cfg0.N) :
    (dats m 0 c).flushed 4 t
      = ((cfg0.win 4).blk t).view.read (Elt Ideal) (Cert.Spec.layer (V m c main_arg0) (V m c main_arg1) (V m c main_arg2) (m ((c : Thread nD τ).loc main_arg3))) := by
  rw [flushed_pay]
  funext y
  rw [View.read_apply]
  have y0 : (y 0).val < 1 := (y 0).isLt
  have y1 : (y 1).val < 1024 := (y 1).isLt
  have y2 : (y 2).val < 256 := (y 2).isLt
  obtain ⟨-, -, -, -, -, -, -, -, -, -, e0, e1, e2⟩ := idx_facts t
  have hy : (cfg0.win 4).xinj (grid0.coords t) y = ix3 (0 : Fin 1) (⟨(y 1).val, y1⟩ : Fin 1024) (⟨(y 2).val, y2⟩ : Fin 256) :=
    funext fun a => Fin.ext (by
      match a with
      | ⟨0, _⟩ => show (y 0).val = 0; omega
      | ⟨1, _⟩ => rfl
      | ⟨2, _⟩ => rfl)
  have he : ((cfg0.win 4).blk t).view.emb y
      = ix3 (bat t) (row t (⟨(y 1).val, y1⟩ : Fin 1024)) (⟨(y 2).val, y2⟩ : Fin 256) :=
    funext fun a => Fin.ext (by
      match a with
      | ⟨0, _⟩ => show win0_4.index t (0 : Fin 3) * 1 + 1 * (y 0).val = t.val / 2; omega
      | ⟨1, _⟩ => show win0_4.index t (1 : Fin 3) * 1024 + 1 * (y 1).val = t.val % 2 * 1024 + (y 1).val; omega
      | ⟨2, _⟩ => show win0_4.index t (2 : Fin 3) * 256 + 1 * (y 2).val = (y 2).val; omega)
  refine (congrArg (k0_pay2 (F := Ideal) (iblk m c 1 t) ((outsAt0 m c t.val t.isLt).2) (iblk m c 3 t)) hy).trans ?_
  refine Eq.trans ?_ (congrArg (Cert.Spec.layer (V m c main_arg0) (V m c main_arg1) (V m c main_arg2) (m ((c : Thread nD τ).loc main_arg3))) he).symm
  exact pay2_layer (V m c main_arg0) (V m c main_arg1) (V m c main_arg2) (m ((c : Thread nD τ).loc main_arg3)) (bat t)
    (iblk m c 1 t) ((outsAt0 m c t.val t.isLt).2) (iblk m c 3 t) (row t)
    (iblk1_apply m c t) (scratch_eq m c t) (fun o => (iblk3_apply m c t o).trans (V_bias_apply m c o))
    ⟨(y 1).val, y1⟩ ⟨(y 2).val, y2⟩

/-! ## The cover, and the array after the run -/

/-- Every index of the result array lies in some point's block: row `n` of batch `b` in that of point `2 b + n / 1024`. -/
theorem cover (i : S8x2048x256.Idx) :
    ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 256 := (i 2).isLt
  have hN : 2 * (i 0).val + (i 1).val / 1024 < cfg0.N := by rw [show cfg0.N = 16 from N_0]; omega
  obtain ⟨-, -, -, -, -, -, -, -, -, -, e0, e1, e2⟩ := idx_facts ⟨2 * (i 0).val + (i 1).val / 1024, hN⟩
  refine ⟨⟨2 * (i 0).val + (i 1).val / 1024, hN⟩, flush0_4 _, ?_⟩
  show i ∈ ((View.whole main_v1).slice (win0_4.rect ⟨2 * (i 0).val + (i 1).val / 1024, hN⟩)).set
  rw [View.set_slice_whole, Rect.mem_set_unit]
  intro a
  match a with
  | ⟨0, _⟩ =>
    show win0_4.index ⟨2 * (i 0).val + (i 1).val / 1024, hN⟩ (0 : Fin 3) * 1 ≤ (i 0).val
      ∧ (i 0).val < win0_4.index ⟨2 * (i 0).val + (i 1).val / 1024, hN⟩ (0 : Fin 3) * 1 + 1
    rw [e0]; dsimp only; omega
  | ⟨1, _⟩ =>
    show win0_4.index ⟨2 * (i 0).val + (i 1).val / 1024, hN⟩ (1 : Fin 3) * 1024 ≤ (i 1).val
      ∧ (i 1).val < win0_4.index ⟨2 * (i 0).val + (i 1).val / 1024, hN⟩ (1 : Fin 3) * 1024 + 1024
    rw [e1]; dsimp only; omega
  | ⟨2, _⟩ =>
    show win0_4.index ⟨2 * (i 0).val + (i 1).val / 1024, hN⟩ (2 : Fin 3) * 256 ≤ (i 2).val
      ∧ (i 2).val < win0_4.index ⟨2 * (i 0).val + (i 1).val / 1024, hN⟩ (2 : Fin 3) * 256 + 256
    rw [e2]; omega

/-- THE ARRAY after the run: the layer of the argument arrays. -/
theorem final (c : Dev nD) :
    (dats m 0 c).arrAt 4 cfg0.N
      = Cert.Spec.layer (m ((c : Thread nD τ).loc main_arg0)) (m ((c : Thread nD τ).loc main_arg1))
          (m ((c : Thread nD τ).loc main_arg2)) (m ((c : Thread nD τ).loc main_arg3)) := by
  have h := (dats m 0 c).arrAt_eq_of_cover 4 (Cert.Spec.layer (V m c main_arg0) (V m c main_arg1) (V m c main_arg2) (m ((c : Thread nD τ).loc main_arg3))) (fun t _ => flushed_eq m c t) cover
  rw [V_main_arg0, V_main_arg1, V_main_arg2] at h
  exact h

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v1)
        = Cert.Spec.layer (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Layer

end
-- ==== Proof.lean ====
/- The proof of `Cert.Claim` (proofs.«113239_j5540507811925_2_alg».proof.Defs).

   The kernel is one graph-convolution layer: the weights are replaced by their ternary pattern (`1` above the threshold,
   `-1` below its negative, `0` between), every feature row is projected through the pattern, the projected rows are
   summed over each row's neighbourhood, the bias is added and the result clamped below at zero. The kernel scales the
   projected rows by the threshold after the projection and keeps them, per batch, in a scratch that the two grid points
   of the batch share; the reference scales the pattern itself before the projection.

   On the extended reals both programs compute `Cert.Spec.layer` (Proof/Spec.lean). The reference: its run read one
   operation at a time, and the scale moved across the inner sum — multiplication by a nonnegative real distributes over
   every sum of extended reals, so no condition on the inputs is needed (Proof/RefLayer.lean). The kernel: what one run of
   the body leaves (Proof/Pieces.lean), its two stored values at an index (Proof/Payloads.lean over
   Proof/LibPlainDot.lean), the windows' blocks as restrictions of the arrays (Proof/Blocks.lean), and the scratch
   after every point, the blocks written back, and their cover of the result (Proof/KernelLayer.lean).

   The three frames are the generated ones (the reference's is its generated run with the result dropped); the
   idealization rewrote nothing, so `preserves` is `True`. -/
import proofs.«113239_j5540507811925_2_alg».proof.Defs
import proofs.«113239_j5540507811925_2_alg».proof.Proof.Gen.Kernel
import proofs.«113239_j5540507811925_2_alg».proof.Proof.Gen.Kernel.Skeleton
import proofs.«113239_j5540507811925_2_alg».proof.Proof.Gen.Kernel.Launch
import proofs.«113239_j5540507811925_2_alg».proof.Proof.Gen.Kernel.Points
import proofs.«113239_j5540507811925_2_alg».proof.Proof.Gen.Kernel.Frame
import proofs.«113239_j5540507811925_2_alg».proof.Proof.Gen.KernelIdeal
import proofs.«113239_j5540507811925_2_alg».proof.Proof.Gen.KernelIdeal.Skeleton
import proofs.«113239_j5540507811925_2_alg».proof.Proof.Gen.KernelIdeal.Launch
import proofs.«113239_j5540507811925_2_alg».proof.Proof.Gen.KernelIdeal.Points
import proofs.«113239_j5540507811925_2_alg».proof.Proof.Gen.KernelIdeal.Frame
import proofs.«113239_j5540507811925_2_alg».proof.Proof.Gen.ReferenceIdeal
import proofs.«113239_j5540507811925_2_alg».proof.Proof.Gen.KernelIdeal.Value
import proofs.«113239_j5540507811925_2_alg».proof.Proof.Gen.ReferenceIdeal.Run
import proofs.«113239_j5540507811925_2_alg».proof.Proof.Gen.ReferenceIdeal.Read
import proofs.«113239_j5540507811925_2_alg».proof.Proof.Gen.Pre_finite_inputs
import proofs.«113239_j5540507811925_2_alg».proof.Proof.Spec
import proofs.«113239_j5540507811925_2_alg».proof.Proof.RefLayer
import proofs.«113239_j5540507811925_2_alg».proof.Proof.KernelLayer
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals the kernel's result array ends at the layer of its arguments (`Layer.run`), and the
    reference's at its composed term, which is the layer of ITS arguments (`RefLayer.ref_eq`); the arguments agree. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.RefLayer.ref_eq, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
